-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x1024 .f32) (main_arg1 : FVec F S4096x1024 .f32) (main_arg2 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S16384 : Shape := ⟨1, ![16384]⟩
abbrev S16384x1 : Shape := ⟨2, ![16384, 1]⟩
abbrev S16384x4096 : Shape := ⟨2, ![16384, 4096]⟩
abbrev S256x1024 : Shape := ⟨2, ![256, 1024]⟩
abbrev S256x1 : Shape := ⟨2, ![256, 1]⟩
abbrev S256x4096 : Shape := ⟨2, ![256, 4096]⟩

abbrev nBuf : Space → Nat
  | .hbm => 15
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S4096x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S1x4096, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S1x4096, .f32⟩
  | .hbm, ⟨14, _⟩ => ⟨S16384x4096, .f32⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S256x1, .f32⟩
  | .local _ .vmem, ⟨4, _⟩ => ⟨S256x1, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  reducesTo_S4096x1024_S4096_d1 : S4096x1024.ReducesTo [1] S4096
  h_S_ : 0 < S_.numel
  bcast_S4096_S4096x1_0 : S4096.BroadcastsInDim S4096x1 (![0] : Fin 1 → Fin S4096x1.rank)
  shapeCasts_S4096x1_S1x4096 : S4096x1.ShapeCasts S1x4096
  reducesTo_S16384x1024_S16384_d1 : S16384x1024.ReducesTo [1] S16384
  bcast_S16384_S16384x1_0 : S16384.BroadcastsInDim S16384x1 (![0] : Fin 1 → Fin S16384x1.rank)
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .f32 = 32 ∨ (Rect.block (s := S16384x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S16384x4096.size a
  hwx0_5 : ∀ i : grid0.Coords, EltTy.bits .f32 = 32 ∨ (Rect.block (s := S16384x4096) S256x4096.size (cc0_transform_5 i) (hinb0_5 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S4096, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S1024x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S_, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S1x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  transposes_S4096x1024_S1024x4096_1_0 : S4096x1024.Transposes [1, 0] S1024x4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.Spec.lean ====
/-
  The radial-basis layer as one function of its three arguments.

  For samples x (16384 rows of 1024 entries), centres c (4096 rows of 1024 entries) and widths β (4096 entries) the
  layer's entry (n, o) is

      exp ( -β o · √ max ( ‖x n‖² + ‖c o‖² − 2 · ⟨x n, c o⟩ , 0 ) )

  read on the extended reals: ‖·‖² is a row's sum of squares started from the zero word (as a float sum from an initial
  value reads), ⟨·,·⟩ the sum over the 1024 shared coordinates of the products of the two rows' entries, and the words
  for 2 and 0 are kept as words (both programs spell the same ones, so they are never evaluated).
-/
import Idealize.ShloMosaic.PureOps.Ideal.Laws
import Idealize.ShloMosaic.Lib.ValueIdx

noncomputable section

open scoped BigOperators

namespace Cert.Rbf

open Idealize.ShloMosaic Idealize.ShloMosaic.ValueIdx

/-- The samples' shape, the centres', the widths' and the result's. -/
abbrev SX : Shape := ⟨2, ![16384, 1024]⟩
abbrev SC : Shape := ⟨2, ![4096, 1024]⟩
abbrev SB : Shape := ⟨1, ![4096]⟩
abbrev SO : Shape := ⟨2, ![16384, 4096]⟩

/-- The f32 words of 0 and 2 at the exact values. -/
abbrev zero : EReal := Ideal.ofBits .f32 0x00000000#32
abbrev two : EReal := Ideal.ofBits .f32 0x40000000#32

/-- A row's squared norm: the zero word plus the sum of the squares of its 1024 entries. -/
def sqNorm {R : ℕ} (a : (⟨2, ![R, 1024]⟩ : Shape).Idx → EReal) (r : Fin R) : EReal :=
  zero + ∑ k : Fin 1024, a (ix2 r k) * a (ix2 r k)

/-- The inner product of row n of the samples with row o of the centres. -/
def inner (x : SX.Idx → EReal) (c : SC.Idx → EReal) (n : Fin 16384) (o : Fin 4096) : EReal :=
  ∑ k : Fin 1024, x (ix2 n k) * c (ix2 o k)

/-- The squared distance by the expansion ‖x‖² + ‖c‖² − 2⟨x, c⟩, floored at zero. -/
def sqDist (x : SX.Idx → EReal) (c : SC.Idx → EReal) (n : Fin 16384) (o : Fin 4096) : EReal :=
  max (sqNorm x n + sqNorm c o - two * inner x c n o) zero

/-- The layer: entry (n, o) is exp (−β o · √ (squared distance of x n and c o)). -/
def layer (x : SX.Idx → EReal) (c : SC.Idx → EReal) (β : SB.Idx → EReal) : SO.Idx → EReal := fun i =>
  Ideal.exp (-β (ix1 (i 1)) * Ideal.sqrt (sqDist x c (i 0) (i 1)))

/-- Subtracting from the zero word is negation, on every extended real. -/
theorem zero_sub_eq_neg (b : EReal) : zero - b = -b := by
  show Ideal.ofBits .f32 0x00000000#32 - b = -b
  rw [Ideal.ofBits_zero_f32, sub_eq_add_neg, zero_add]

end Cert.Rbf

end
-- ==== Proof.Body.lean ====
/-
  One block of the kernel's result, entry by entry.

  The body works on 256 sample rows at a time. From the block x of those rows (256 × 1024), all the centres c in the narrow
  format (4096 × 1024), the rows' squared norms as a column (256 × 1), the centres' squared norms as a row (1 × 4096) and
  the widths as a row (1 × 4096), it stores, at (p, q),

      exp ( (0 − β q) · √ max ( (xsq p + csq q) − 2 · ∑ k, x (p, k) · c (q, k) , 0 ) ).

  The product contracts the last axis of both operands into a zero accumulator, so its entry (p, q) is the sum over k of the
  two rows' products (narrowing x changes nothing at the exact values); the column is spread along the columns and the rows
  down the rows.
-/
import proofs.«166205_j56298431316600_2_alg».proof.Proof.Gen.KernelIdeal.Skeleton
import proofs.«166205_j56298431316600_2_alg».proof.Proof.LibDotLastAxes
import proofs.«166205_j56298431316600_2_alg».proof.Proof.LibColumnBroadcast
import proofs.«166205_j56298431316600_2_alg».proof.Proof.Spec
import Idealize.ShloMosaic.Lib.ValueLayout

noncomputable section

open scoped BigOperators

namespace Cert.Rbf.Body

open Cert.KernelIdeal Cert.KernelIdeal.Gen Idealize.ShloMosaic Idealize.ShloMosaic.ValueIdx Cert.Rbf

/-- The exponential and the square root of an array, at an entry, are the exact ones of the entry. -/
theorem exp_apply {s : Shape} (a : FVec Ideal s .f32) (i : s.Idx) : exp a i = Ideal.exp (a i) := rfl
theorem sqrt_apply {s : Shape} (a : FVec Ideal s .f32) (i : s.Idx) : sqrt a i = Ideal.sqrt (a i) := rfl

/-- The block's entry (p, q) from the five loaded blocks. -/
theorem payload_apply (x0 : FVec Ideal S256x1024 .f32) (x1 : FVec Ideal S4096x1024 .bf16) (x2 : FVec Ideal S256x1 .f32)
    (x3 : FVec Ideal S1x4096 .f32) (x4 : FVec Ideal S1x4096 .f32) (p : Fin 256) (q : Fin 4096) :
    k0_pay1 (F := Ideal) x0 x1 x2 x3 x4 (ix2 p q)
      = Ideal.exp ((zero - x4 (ix2 (0 : Fin 1) q))
          * Ideal.sqrt (max ((x2 (ix2 p (0 : Fin 1)) + x3 (ix2 (0 : Fin 1) q))
              - two * ∑ k : Fin 1024, x0 (ix2 p k) * x1 (ix2 q k)) zero)) := by
  have hprod : matmul (F := Ideal) dot_S256x1024_S4096x1024_S256x4096_1_1_0_0_n_n none (truncf .bf16 x0 bitsLt_bf16_f32)
        x1 (constant (F := Ideal) S256x4096 .f32 0x00000000#32) (ix2 p q)
      = ∑ k : Fin 1024, (truncf .bf16 x0 bitsLt_bf16_f32 : FVec Ideal S256x1024 .bf16) (ix2 p k) * x1 (ix2 q k) :=
    DotLastAxes.matmul_zero_apply (M := 256) (K := 1024) (N := 4096) (φ₁ := .bf16) (φ₂ := .bf16)
      dot_S256x1024_S4096x1024_S256x4096_1_1_0_0_n_n_wf none (truncf .bf16 x0 bitsLt_bf16_f32) x1 p q
  have hcol := Cert.Layout.broadcastTo_a1_ab_apply x2 broadcasts_S256x1_S256x4096 p q
  have hrow := broadcastTo_1b_ab_apply x3 broadcasts_S1x4096_S256x4096 p q
  have hneg := broadcastTo_1b_ab_apply
    (subf (broadcast S1x4096 (Scalar.ofBits (F := Ideal) .f32 0x00000000#32)) x4) broadcasts_S1x4096_S256x4096 p q
  simp only [k0_pay1, shapeCast_self]
  rw [exp_apply, mulf_apply, sqrt_apply, maximumf_apply, subf_apply, addf_apply, mulf_apply, broadcast_apply,
    broadcast_apply, hneg, hcol, hrow, hprod]
  rfl

/-- So, when the five blocks hold what the launch finds — rows of the samples, the centres, and the two squared norms and
    the widths at the block's rows and columns — the block's entry (p, q) is the layer's entry at sample row n, column q. -/
theorem block_entry (x0 : FVec Ideal S256x1024 .f32) (x1 : FVec Ideal S4096x1024 .bf16) (x2 : FVec Ideal S256x1 .f32)
    (x3 : FVec Ideal S1x4096 .f32) (x4 : FVec Ideal S1x4096 .f32)
    (x : SX.Idx → EReal) (c : SC.Idx → EReal) (β : SB.Idx → EReal) (n : Fin 16384) (p : Fin 256) (q : Fin 4096)
    (h0 : ∀ k : Fin 1024, x0 (ix2 p k) = x (ix2 n k)) (h1 : ∀ k : Fin 1024, x1 (ix2 q k) = c (ix2 q k))
    (h2 : x2 (ix2 p (0 : Fin 1)) = sqNorm x n) (h3 : x3 (ix2 (0 : Fin 1) q) = sqNorm c q)
    (h4 : x4 (ix2 (0 : Fin 1) q) = β (ix1 q)) :
    k0_pay1 (F := Ideal) x0 x1 x2 x3 x4 (ix2 p q) = layer x c β (ix2 n q) := by
  rw [payload_apply, h2, h3, h4, zero_sub_eq_neg]
  simp only [h0, h1]
  rfl

end Cert.Rbf.Body

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«166205_j56298431316600_2_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.Entry.lean ====
/-
  What the kernel's launch finds in the arrays it reads, entry by entry.

  Before the launch the surrounding program prepares four arrays from the arguments: the centres narrowed (at the exact
  values, the centres themselves); each sample row's squared norm, a host sum along the row from the zero word, kept as a
  column; each centre row's squared norm, the same sum kept as a column and then laid out as one row (entry (0, o) of the row
  is entry (o, 0) of the column: both are at position o in row-major order); and the widths laid out as one row.
-/
import proofs.«166205_j56298431316600_2_alg».proof.Proof.Gen.KernelIdeal.Frame
import proofs.«166205_j56298431316600_2_alg».proof.Proof.LibHostColumn
import proofs.«166205_j56298431316600_2_alg».proof.Proof.LibHostRowSum
import proofs.«166205_j56298431316600_2_alg».proof.Proof.Spec
import Idealize.ShloMosaic.Lib.StableHlo.Run
import Idealize.ShloMosaic.Lib.ValueLayout

noncomputable section

open scoped BigOperators

namespace Cert.Rbf.Entry

open Cert.KernelIdeal Cert.KernelIdeal.Gen Idealize.ShloMosaic Idealize.ShloMosaic.TcCoe Idealize.SL.Sem
open Idealize.ShloMosaic.ValueIdx Idealize.ShloMosaic.StableHlo Cert.Rbf

variable (m : (ℓ : Loc nD τ sig) → Buf (Elt Ideal) ℓ)

/-- The three arguments as launched, on device `c`. -/
abbrev xs (c : Dev nD) : S16384x1024.Idx → EReal := m ((c : Thread nD τ).loc main_arg0)
abbrev cs (c : Dev nD) : S4096x1024.Idx → EReal := m ((c : Thread nD τ).loc main_arg1)
abbrev βs (c : Dev nD) : S4096.Idx → EReal := m ((c : Thread nD τ).loc main_arg2)

/-- The samples are found as launched. -/
theorem samples_apply (c : Dev nD) (i : S16384x1024.Idx) :
    (V m c main_arg0 : S16384x1024.Idx → EReal) i = xs m c i := by
  rw [V_main_arg0]

/-- The narrowed centres are the centres. -/
theorem centres_apply (c : Dev nD) (i : S4096x1024.Idx) :
    (V m c main_v0 : S4096x1024.Idx → EReal) i = cs m c i := by
  have e : @Eq (FVec Ideal S4096x1024 .bf16) (V m c main_v0)
      (truncf (F := Ideal) (φ := .f32) .bf16 (cs m c) bitsLt_bf16_f32) := by
    dsimp only [Gen.V, Gen.hostOps0]; after_results
  exact congrFun e i

/-- The samples' squared norms, as a column: entry (n, 0) is row n's. -/
theorem sampleNorms_apply (c : Dev nD) (n : Fin 16384) (u : Fin 1) :
    (V m c main_v7 : S16384x1.Idx → EReal) (ix2 n u) = sqNorm (xs m c) n := by
  have e : @Eq (S16384x1.Idx → EReal) (V m c main_v7)
      <| broadcastInDim S16384x1 ![0] bcast_S16384_S16384x1_0
          (Host.reduceAdd (F := Ideal) (mulf (xs m c : FVec Ideal S16384x1024 .f32) (xs m c))
            (constant (F := Ideal) S_ .f32 0x00000000#32) reducesTo_S16384x1024_S16384_d1 h_S_) := by
    dsimp only [Gen.V, Gen.hostOps0]; after_results
  rw [e, Cert.LibHostColumn.column_apply, Cert.LibHostRowSum.reduceAdd_row _ _ _ (by decide)]
  rfl

/-- The centres' squared norms, as a row: entry (0, o) is row o's. -/
theorem centreNorms_apply (c : Dev nD) (u : Fin 1) (o : Fin 4096) :
    (V m c main_v4 : S1x4096.Idx → EReal) (ix2 u o) = sqNorm (cs m c) o := by
  have e : @Eq (S1x4096.Idx → EReal) (V m c main_v4)
      <| shapeCast S1x4096 (broadcastInDim S4096x1 ![0] bcast_S4096_S4096x1_0
          (Host.reduceAdd (F := Ideal) (mulf (cs m c : FVec Ideal S4096x1024 .f32) (cs m c))
            (constant (F := Ideal) S_ .f32 0x00000000#32) reducesTo_S4096x1024_S4096_d1 h_S_)) shapeCasts_S4096x1_S1x4096 := by
    dsimp only [Gen.V, Gen.hostOps0]; after_results; rfl
  have hu : u.val = 0 := by omega
  rw [e, shapeCast_apply _ shapeCasts_S4096x1_S1x4096 (ix2 u o) (ix2 o (0 : Fin 1)) (by
      rw [Shape.rowMajor_val_two, Shape.rowMajor_val_two]
      show o.val * 1 + 0 = u.val * 4096 + o.val
      omega),
    Cert.LibHostColumn.column_apply, Cert.LibHostRowSum.reduceAdd_row _ _ _ (by decide)]
  rfl

/-- The widths, as a row: entry (0, o) is width o. -/
theorem widths_apply (c : Dev nD) (u : Fin 1) (o : Fin 4096) :
    (V m c main_v8 : S1x4096.Idx → EReal) (ix2 u o) = βs m c (ix1 o) := by
  have e : @Eq (S1x4096.Idx → EReal) (V m c main_v8) (shapeCast S1x4096 (βs m c) shapeCasts_S4096_S1x4096) := by
    dsimp only [Gen.V, Gen.hostOps0]; after_results; rfl
  rw [e]
  exact shapeCast_a_1a_apply (βs m c) shapeCasts_S4096_S1x4096 u o

end Cert.Rbf.Entry

end
-- ==== Proof.Blocks.lean ====
/-
  From blocks to the whole array.

  The launch runs over 64 points. Point t reads sample rows 256·t … 256·t + 255 (and their squared norms), every centre,
  the centres' squared norms and the widths, and writes rows 256·t … 256·t + 255 of the result, all 4096 columns. By the
  block's entries (`Body.block_entry`) and what the launch finds in the arrays (`Entry`), what point t writes back is
  block t of `layer`; the 64 blocks cover the 16384 rows (row r lies in block r / 256), so the result array ends holding
  `layer` of the three arguments.
-/
import proofs.«166205_j56298431316600_2_alg».proof.Proof.Gen.KernelIdeal.Value
import proofs.«166205_j56298431316600_2_alg».proof.Proof.Body
import proofs.«166205_j56298431316600_2_alg».proof.Proof.Entry

noncomputable section

open scoped BigOperators

namespace Cert.Rbf.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Rbf Cert.Rbf.Entry

variable (m : (ℓ : Loc nD τ sig) → Buf (Elt Ideal) ℓ) (ρ : Dev nD → PrngReg)

theorem offsets_zero : (![0, 0] : Fin 2 → Nat) = fun _ => 0 := funext fun a => by fin_cases a <;> rfl

/-- The block indices, decided over the 64 points: the samples, their norms and the result move together down the rows, one
    block per point; the centres, their norms and the widths stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the three arguments. -/
theorem flushed_eq (c : Dev nD) (t : Fin cfg0.N) :
    (dats m 0 c).flushed 5 t
      = ((cfg0.win 5).blk t).view.read (Elt Ideal) (layer (xs m c) (cs m c) (βs m c)) := by
  rw [Cert.KernelIdeal.Value.flushed5]
  unfold out0_5
  rw [View.canon_unit_zero offsets_zero]
  simp only [View.ld_unit_zero (S := S256x1024) offsets_zero, View.ld_unit_zero (S := S4096x1024) offsets_zero,
    View.ld_unit_zero (S := S256x1) offsets_zero, View.ld_unit_zero (S := S1x4096) offsets_zero]
  obtain ⟨e00, e01, e10, e11, e20, e21, e30, e31, e40, e41, e50, e51⟩ := block_indices t
  have hN : cfg0.N = 64 := N_0
  have ht : t.val < 64 := hN ▸ t.isLt
  funext j
  obtain ⟨p, q, rfl⟩ : ∃ (p : Fin 256) (q : Fin 4096), j = ix2 p q := ⟨j 0, j 1, eq_ix2 j⟩
  have hp : p.val < 256 := p.isLt
  have hq : q.val < 4096 := q.isLt
  have hrow : t.val * 256 + p.val < 16384 := by omega
  refine (Body.block_entry (iblk m c 0 t) (iblk m c 1 t) (iblk m c 2 t) (iblk m c 3 t) (iblk m c 4 t)
    (xs m c) (cs m c) (βs m c) ⟨t.val * 256 + p.val, hrow⟩ p q ?_ ?_ ?_ ?_ ?_).trans ?_
  · intro k
    have hk : k.val < 1024 := k.isLt
    show V m c main_arg0 (((cfg0.win 0).blk t).view.emb (ix2 p k)) = _
    rw [show ((cfg0.win 0).blk t).view.emb (ix2 p k) = ix2 (⟨t.val * 256 + p.val, hrow⟩ : Fin 16384) k from
      funext fun a => Fin.ext (by
        match a with
        | ⟨0, _⟩ => show win0_0.index t (0 : Fin 2) * 256 + 1 * p.val = t.val * 256 + p.val; omega
        | ⟨1, _⟩ => show win0_0.index t (1 : Fin 2) * 1024 + 1 * k.val = k.val; omega)]
    exact samples_apply m c _
  · intro k
    have hk : k.val < 1024 := k.isLt
    show V m c main_v0 (((cfg0.win 1).blk t).view.emb (ix2 q k)) = _
    rw [show ((cfg0.win 1).blk t).view.emb (ix2 q k) = ix2 q k from
      funext fun a => Fin.ext (by
        match a with
        | ⟨0, _⟩ => show win0_1.index t (0 : Fin 2) * 4096 + 1 * q.val = q.val; omega
        | ⟨1, _⟩ => show win0_1.index t (1 : Fin 2) * 1024 + 1 * k.val = k.val; omega)]
    exact centres_apply m c _
  · show V m c main_v7 (((cfg0.win 2).blk t).view.emb (ix2 p (0 : Fin 1))) = _
    rw [show ((cfg0.win 2).blk t).view.emb (ix2 p (0 : Fin 1)) = ix2 (⟨t.val * 256 + p.val, hrow⟩ : Fin 16384) (0 : Fin 1) from
      funext fun a => Fin.ext (by
        match a with
        | ⟨0, _⟩ => show win0_2.index t (0 : Fin 2) * 256 + 1 * p.val = t.val * 256 + p.val; omega
        | ⟨1, _⟩ => show win0_2.index t (1 : Fin 2) * 1 + 1 * 0 = 0; omega)]
    exact sampleNorms_apply m c _ _
  · show V m c main_v4 (((cfg0.win 3).blk t).view.emb (ix2 (0 : Fin 1) q)) = _
    rw [show ((cfg0.win 3).blk t).view.emb (ix2 (0 : Fin 1) q) = ix2 (0 : Fin 1) q from
      funext fun a => Fin.ext (by
        match a with
        | ⟨0, _⟩ => show win0_3.index t (0 : Fin 2) * 1 + 1 * 0 = 0; omega
        | ⟨1, _⟩ => show win0_3.index t (1 : Fin 2) * 4096 + 1 * q.val = q.val; omega)]
    exact centreNorms_apply m c _ _
  · show V m c main_v8 (((cfg0.win 4).blk t).view.emb (ix2 (0 : Fin 1) q)) = _
    rw [show ((cfg0.win 4).blk t).view.emb (ix2 (0 : Fin 1) q) = ix2 (0 : Fin 1) q from
      funext fun a => Fin.ext (by
        match a with
        | ⟨0, _⟩ => show win0_4.index t (0 : Fin 2) * 1 + 1 * 0 = 0; omega
        | ⟨1, _⟩ => show win0_4.index t (1 : Fin 2) * 4096 + 1 * q.val = q.val; omega)]
    exact widths_apply m c _ _
  · show layer (xs m c) (cs m c) (βs m c) _ = layer (xs m c) (cs m c) (βs m c) (((cfg0.win 5).blk t).view.emb (ix2 p q))
    refine congrArg (layer (xs m c) (cs m c) (βs m c)) (funext fun a => Fin.ext ?_)
    match a with
    | ⟨0, _⟩ => show t.val * 256 + p.val = win0_5.index t (0 : Fin 2) * 256 + 1 * p.val; omega
    | ⟨1, _⟩ => show q.val = win0_5.index t (1 : Fin 2) * 4096 + 1 * q.val; omega

/-- An index of the result is in point t's block iff each coordinate is in the block's range on its axis. -/
theorem mem_block (t : Fin cfg0.N) (i : S16384x4096.Idx) :
    i ∈ ((cfg0.win 5).blk t).view.set
      ↔ ∀ a : Fin 2, win0_5.index t a * S256x4096.size a ≤ (i a).val
          ∧ (i a).val < win0_5.index t a * S256x4096.size a + S256x4096.size a := by
  show i ∈ ((View.whole main_v9).slice (win0_5.rect t)).set ↔ _
  rw [View.set_slice_whole, Rect.mem_set_unit]
  exact Iff.rfl

/-- Every index of the result is in the block of the point numbered by its row divided by 256. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 64 := N_0
  obtain ⟨t, ht⟩ : ∃ t : Fin cfg0.N, t.val = (i 0).val / 256 := ⟨⟨(i 0).val / 256, by rw [hN]; omega⟩, rfl⟩
  obtain ⟨-, -, -, -, -, -, -, -, -, -, e50, e51⟩ := block_indices t
  refine ⟨t, flush0_5 t, ?_⟩
  rw [mem_block]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 4096 ≤ (i 1).val ∧ (i 1).val < win0_5.index t (1 : Fin 2) * 4096 + 4096
    omega

/-- The result array after the run is the layer of the three arguments. -/
theorem final (c : Dev nD) : (dats m 0 c).arrAt 5 cfg0.N = layer (xs m c) (cs m c) (βs m c) :=
  (dats m 0 c).arrAt_eq_of_cover 5 (layer (xs m c) (cs m c) (βs m c)) (fun t _ => flushed_eq m c t) covered

/-- The kernel's run, read: every weakly fair execution ends with the result at the layer of the arguments and the
    arguments unchanged. -/
theorem run : θ_run defs (onTc (τ := τ) (main (F := Ideal))) ⟨m, fun _ => 0, ρ⟩ fun r => ∀ c : Dev nD,
      r.2.mem ((c : Thread nD τ).loc main_v9) = layer (xs m c) (cs m c) (βs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Rbf.Blocks

end
-- ==== Proof.RefIsLayer.lean ====
/-
  The reference computes the layer.

  Read one operation at a time, the reference's result at (n, o) is the host exponential of the negated width of
  column o times the host square root of max (‖x n‖² + ‖c o‖² − 2 · (x · cᵀ)(n, o), 0): the two squared norms are host sums
  along the rows spread back over the result, and the product with the transposed centres at (n, o) is the sum over k of
  x (n, k) · c (o, k). On the extended reals the host's exponential, square root and negation are the exact ones, so the
  result is `layer` entry by entry.
-/
import proofs.«166205_j56298431316600_2_alg».proof.Proof.Gen.ReferenceIdeal.Read
import proofs.«166205_j56298431316600_2_alg».proof.Proof.Spec

noncomputable section

open scoped BigOperators

namespace Cert.Rbf.Ref

open Cert.ReferenceIdeal Cert.ReferenceIdeal.Read Idealize.ShloMosaic Idealize.ShloMosaic.ValueIdx Cert.Rbf

/-- Where the reference's indices land: the width's index under the two spreads is the column. -/
theorem idx_beta (i : S16384x4096.Idx) : idx_main_v17 (idx_main_v19 i) = ix1 (i 1) :=
  funext fun a => Fin.ext (by match a with | ⟨0, _⟩ => rfl)

/-- The sample row summed for entry (n, o) is row n. -/
theorem idx_xsq (i : S16384x4096.Idx) (k : Fin 1024) : idx_main_v1 (idx_main_v2 (idx_main_v8 i)) k = ix2 (i 0) k :=
  funext fun a => Fin.ext (by match a with | ⟨0, _⟩ => rfl | ⟨1, _⟩ => rfl)

/-- The centre row summed for entry (n, o) is row o. -/
theorem idx_csq (i : S16384x4096.Idx) (k : Fin 1024) : idx_main_v4 (idx_main_v7 (idx_main_v9 i)) k = ix2 (i 1) k :=
  funext fun a => Fin.ext (by match a with | ⟨0, _⟩ => rfl | ⟨1, _⟩ => rfl)

/-- The product's left factor at (n, o), term k, is x (n, k). -/
theorem idx_lhs (i : S16384x4096.Idx) (k : Fin 1024) : lidx_main_v6 i k = ix2 (i 0) k :=
  funext fun a => Fin.ext (by match a with | ⟨0, _⟩ => rfl | ⟨1, _⟩ => rfl)

/-- Its right factor, through the transpose, is c (o, k). -/
theorem idx_rhs (i : S16384x4096.Idx) (k : Fin 1024) : idx_main_v5 (ridx_main_v6 i k) = ix2 (i 1) k :=
  funext fun a => Fin.ext (by match a with | ⟨0, _⟩ => rfl | ⟨1, _⟩ => rfl)

/-- The reference's result, as a function of the three arguments, is the layer. -/
theorem result_eq_layer (x : (⟨S16384x1024, .f32⟩ : BufTy).Contents (Elt Ideal)) (c : (⟨S4096x1024, .f32⟩ : BufTy).Contents (Elt Ideal))
    (β : (⟨S4096, .f32⟩ : BufTy).Contents (Elt Ideal)) :
    val_main_v21 (F := Ideal) x c β = layer x c β := by
  funext i
  rw [val_main_v21_apply, val_main_v20_apply, val_main_v19_apply, val_main_v18_apply, val_main_v17_apply,
    val_main_v16_apply, val_main_v15_apply, val_main_v14_apply, val_main_cst_2_apply, val_main_v13_apply,
    val_main_v12_apply, val_main_v11_apply, val_main_cst_1_apply, val_main_v6_apply, val_main_v10_apply,
    val_main_v9_apply, val_main_v7_apply, val_main_v4_apply, val_main_v8_apply, val_main_v2_apply, val_main_v1_apply]
  simp only [val_main_v5_apply, val_main_v3_apply, val_main_v0_apply, val_main_cst_apply, val_main_cst_0_apply,
    idx_beta, idx_xsq, idx_csq, idx_lhs, idx_rhs]
  rfl

end Cert.Rbf.Ref

end
-- ==== Proof.lean ====
/-
  The radial-basis kernel against its reference, on the extended reals.

  Both programs compute, for samples x, centres c and widths β,

      out (n, o) = exp ( −β o · √ max ( ‖x n‖² + ‖c o‖² − 2 ⟨x n, c o⟩ , 0 ) ).

  The kernel takes the two squared norms outside its launch (host sums along the rows), narrows the operands of the inner
  products, and works on 256 sample rows per grid point against all 4096 centres; the reference forms x · cᵀ whole. At the
  exact values narrowing is the identity and a matrix product is the plain sum of products, so both sides are the same sums;
  the kernel spells the negated width as 0 − β and the reference as −β, which agree on every extended real. No step moves
  a factor across a sum or cancels anything, so finiteness of the inputs is never used.

  `Spec` states the layer as one function; `RefIsLayer` reads the reference's operations at an index; `Body` reads one
  block of the kernel's result at an index, `Entry` the arrays its launch finds, and `Blocks` puts the 64 blocks together.
  The three runs (terminating, without fault, arguments unchanged) are the generated ones; the idealised kernel is the
  kernel's own text read at the exact values (no rewrite was applied), so that conjunct is trivial.
-/
import proofs.«166205_j56298431316600_2_alg».proof.Defs
import proofs.«166205_j56298431316600_2_alg».proof.Proof.Gen.Kernel
import proofs.«166205_j56298431316600_2_alg».proof.Proof.Gen.Kernel.Frame
import proofs.«166205_j56298431316600_2_alg».proof.Proof.Gen.KernelIdeal
import proofs.«166205_j56298431316600_2_alg».proof.Proof.Gen.KernelIdeal.Frame
import proofs.«166205_j56298431316600_2_alg».proof.Proof.Gen.KernelIdeal.Value
import proofs.«166205_j56298431316600_2_alg».proof.Proof.Gen.ReferenceIdeal
import proofs.«166205_j56298431316600_2_alg».proof.Proof.Gen.ReferenceIdeal.Run
import proofs.«166205_j56298431316600_2_alg».proof.Proof.Gen.ReferenceIdeal.Read
import proofs.«166205_j56298431316600_2_alg».proof.Proof.Gen.Pre_finite_inputs
import proofs.«166205_j56298431316600_2_alg».proof.Proof.Blocks
import proofs.«166205_j56298431316600_2_alg».proof.Proof.RefIsLayer
import Idealize.ShloMosaic.Adequacy
import Idealize.ShloMosaic.Init

noncomputable section

namespace Cert.Proof

open Idealize.ShloMosaic Idealize.SL.Sem

/-- The word-level kernel and the idealised one run to the end with their arguments unchanged (the generated runs). -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its generated run, with the result's value dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the result at the layer of those arguments:
    the kernel block by block (`Blocks.run`), the reference operation by operation (`Ref.result_eq_layer`). -/
theorem algebraic : Cert.algebraic_KernelIdeal_ReferenceIdeal := by
  intro m ρ m' ρ' _ hagree
  refine ⟨fun c => Cert.Rbf.layer (Cert.Rbf.Entry.xs m c) (Cert.Rbf.Entry.cs m c) (Cert.Rbf.Entry.βs m c),
    Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.Rbf.Ref.result_eq_layer, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
